-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x4 : Shape := ⟨3, ![128, 512, 4]⟩
abbrev S_ : Shape := ⟨0, ![]⟩

class Facts : Prop where
  bcast_S_S128x512x4 : S_.BroadcastsInDim S128x512x4 (![] : Fin 0 → Fin S128x512x4.rank)
  reducesTo_S128x512x4_S_d0_1_2 : S128x512x4.ReducesTo [0, 1, 2] S_
  h_S_ : 0 < S_.numel

variable [Facts]

def fn {F : FTy → Type} [FloatOps F] (main_arg0 : FVec F S128x512x4 .f32) : IVec S_ 1 :=
  let main_v0 : FVec F S128x512x4 .f32 := Host.absf main_arg0
  let main_cst : FVec F S_ .f32 := constant S_ .f32 0x7F800000#32
  let main_v1 : FVec F S128x512x4 .f32 := broadcastInDim S128x512x4 ![] bcast_S_S128x512x4 main_cst
  let main_v2 : IVec S128x512x4 1 := cmpf .olt main_v0 main_v1
  let main_c : IVec S_ 1 := constantI S_ 1 1#1
  let main_v3 : IVec S_ 1 := (fun x v => Host.reduce IntOp.andi x v reducesTo_S128x512x4_S_d0_1_2 h_S_) main_v2 main_c
  main_v3
-- ==== Kernel.lean ====
abbrev S128x512x4 : Shape := ⟨3, ![128, 512, 4]⟩
abbrev S128x512x512 : Shape := ⟨3, ![128, 512, 512]⟩
abbrev S4x512x4 : Shape := ⟨3, ![4, 512, 4]⟩
abbrev S4x512x512 : Shape := ⟨3, ![4, 512, 512]⟩
abbrev S1x1x4 : Shape := ⟨3, ![1, 1, 4]⟩
abbrev S128x512x512x1 : Shape := ⟨4, ![128, 512, 512, 1]⟩

abbrev nBuf : Space → Nat
  | .hbm => 3
  | .vmem => 4
  | .smem => 0
  | _ => 0

abbrev bufTy : (tb : Table) → Fin (tcTables nBuf tb) → BufTy
  | .hbm, ⟨0, _⟩ => ⟨S128x512x4, .f32⟩
  | .hbm, ⟨1, _⟩ => ⟨S128x512x512, .f32⟩
  | .hbm, ⟨2, _⟩ => ⟨S128x512x512x1, .f32⟩
  | .local _ .vmem, ⟨0, _⟩ => ⟨S4x512x4, .f32⟩
  | .local _ .vmem, ⟨1, _⟩ => ⟨S4x512x4, .f32⟩
  | .local _ .vmem, ⟨2, _⟩ => ⟨S4x512x512, .f32⟩
  | .local _ .vmem, ⟨3, _⟩ => ⟨S4x512x512, .f32⟩
  | _, _ => ⟨S128x512x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S4x512x4_S4x512x4_0_0_0 : ∀ a, (![0, 0, 0] : Fin 3 → Nat) a + S4x512x4.size a ≤ S4x512x4.size a
  h_S4x512x4 : 0 < S4x512x4.numel
  iota_S1x1x4_d2_w32 : S1x1x4.Iotas .tc 32 [2]
  broadcasts_S1x1x4_S4x512x4 : S1x1x4.Broadcasts S4x512x4
  bitsLt_bf16_f32 : FTy.bits .bf16 < FTy.bits .f32
  inb_S4x512x512_S4x512x512_0_0_0 : ∀ a, (![0, 0, 0] : Fin 3 → Nat) a + S4x512x512.size a ≤ S4x512x512.size a
  h_S4x512x512 : 0 < S4x512x512.numel
  bcast_S128x512x512_S128x512x512x1_0_1_2 : S128x512x512.BroadcastsInDim S128x512x512x1 (![0, 1, 2] : Fin 3 → Fin S128x512x512x1.rank)
  dot_S4x512x4_S4x512x4_S4x512x512_2_2_1_1_0_0_wf : DotDims.WF S4x512x4 S4x512x4 S4x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x4.size a ≤ S128x512x4.size a
  hwx0_0 : ∀ i : grid0.Coords, EltTy.bits .f32 = 32 ∨ (Rect.block (s := S128x512x4) S4x512x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x512.size a ≤ S128x512x512.size a
  hwx0_1 : ∀ i : grid0.Coords, EltTy.bits .f32 = 32 ∨ (Rect.block (s := S128x512x512) S4x512x512.size (cc0_transform_1 i) (hinb0_1 i)).WholeWords (EltTy.packing .f32)

variable [Facts₀]

def dot_S4x512x4_S4x512x4_S4x512x512_2_2_1_1_0_0 : DotDims S4x512x4 S4x512x4 S4x512x512 where
  lhsContracting := [2]
  rhsContracting := [2]
  lhsNonContracting := [1]
  rhsNonContracting := [1]
  lhsBatch := [0]
  rhsBatch := [0]
  wf := dot_S4x512x4_S4x512x4_S4x512x512_2_2_1_1_0_0_wf

abbrev win0_0 : Pipeline.Window sig grid0 :=
  Pipeline.Window.ofSpec (Memref.whole main_arg0) S4x512x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x512x4 : Shape := ⟨3, ![128, 512, 4]⟩
abbrev S4 : Shape := ⟨1, ![4]⟩
abbrev S1x1x4 : Shape := ⟨3, ![1, 1, 4]⟩
abbrev S128x512x512 : Shape := ⟨3, ![128, 512, 512]⟩
abbrev S128x512x512x1 : Shape := ⟨4, ![128, 512, 512, 1]⟩

abbrev nBuf : Space → Nat
  | .hbm => 7
  | .vmem => 0
  | .smem => 0
  | _ => 0

abbrev bufTy : (tb : Table) → Fin (tcTables nBuf tb) → BufTy
  | .hbm, ⟨0, _⟩ => ⟨S128x512x4, .f32⟩
  | .hbm, ⟨1, _⟩ => ⟨S4, .f32⟩
  | .hbm, ⟨2, _⟩ => ⟨S1x1x4, .f32⟩
  | .hbm, ⟨3, _⟩ => ⟨S128x512x4, .f32⟩
  | .hbm, ⟨4, _⟩ => ⟨S128x512x4, .f32⟩
  | .hbm, ⟨5, _⟩ => ⟨S128x512x512, .f32⟩
  | .hbm, ⟨6, _⟩ => ⟨S128x512x512x1, .f32⟩
  | _, _ => ⟨S128x512x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]

class Facts₀ : Prop where
  bcast_S4_S1x1x4_2 : S4.BroadcastsInDim S1x1x4 (![2] : Fin 1 → Fin S1x1x4.rank)
  bcast_S1x1x4_S128x512x4_0_1_2 : S1x1x4.BroadcastsInDim S128x512x4 (![0, 1, 2] : Fin 3 → Fin S128x512x4.rank)
  bcast_S128x512x512_S128x512x512x1_0_1_2 : S128x512x512.BroadcastsInDim S128x512x512x1 (![0, 1, 2] : Fin 3 → Fin S128x512x512x1.rank)
  dot_S128x512x4_S128x512x4_S128x512x512_2_2_1_1_0_0_wf : DotDims.WF S128x512x4 S128x512x4 S128x512x512 [2] [2] [1] [1] [0] [0]

variable [Facts₀]

def dot_S128x512x4_S128x512x4_S128x512x512_2_2_1_1_0_0 : DotDims S128x512x4 S128x512x4 S128x512x512 where
  lhsContracting := [2]
  rhsContracting := [2]
  lhsNonContracting := [1]
  rhsNonContracting := [1]
  lhsBatch := [0]
  rhsBatch := [0]
  wf := dot_S128x512x4_S128x512x4_S128x512x512_2_2_1_1_0_0_wf

class Facts : Prop extends Facts₀ where

variable [Facts]
-- ==== Proof.LibBatchedRowRowDot.lean ====
/-
  A batched contraction of rows against rows, `[B,N,K] × [B,M,K] → [B,N,M]`: one batch axis (axis 0 of both operands),
  the last axis of the left operand contracted with the last axis of the right one, so that entry `(p, q, o)` of the
  result pairs row `q` of the left operand's member `p` with row `o` of the right operand's member `p`
  (jnp's `einsum('bnd,bmd->bnm')`, the Gram matrices of a stack). At the ideal values, read at an index, it is
  the plain sum over the contracted coordinate of the products of the entries:

      result (p, q, o) = ∑ j : Fin K, lhs (p, q, j) * rhs (p, o, j)

  for the host's `dot_general` and for a `tpu.matmul` into the zero accumulator, for any extents and for operands of
  any float formats. The dimension numbers are spelt as a literal record over any well-formedness proof `w`, so the
  lemmas apply to every printed record with these dimension numbers.
-/
import Idealize.ShloMosaic.Lib.ValueIdx
import Idealize.ShloMosaic.PureOps.Ideal.Laws

noncomputable section

namespace Cert.Lib.BatchedRowRowDot

open Idealize.ShloMosaic Idealize.ShloMosaic.ValueIdx

variable {B N M K : Nat} {φ₁ φ₂ : FTy}

/-- The dimension numbers: batch axes `[0] × [0]`, free axes `[1]` and `[1]`, contracted axes `[2] × [2]`. -/
abbrev dims (w : DotDims.WF ⟨3, ![B, N, K]⟩ ⟨3, ![B, M, K]⟩ ⟨3, ![B, N, M]⟩ [2] [2] [1] [1] [0] [0]) :
    DotDims ⟨3, ![B, N, K]⟩ ⟨3, ![B, M, K]⟩ ⟨3, ![B, N, M]⟩ := ⟨[2], [2], [1], [1], [0], [0], w⟩

/-- At result index `(p, q, o)` and contracted coordinate `j` the left operand is read at `(p, q, j)`. -/
theorem lhsIdx_eq (w : DotDims.WF ⟨3, ![B, N, K]⟩ ⟨3, ![B, M, K]⟩ ⟨3, ![B, N, M]⟩ [2] [2] [1] [1] [0] [0])
    (p : Fin B) (q : Fin N) (o : Fin M) (j : Fin K) :
    (dims w).lhsIdx (ix3 p q o) ((contrEquiv1 (dims w) K rfl rfl).symm j) = ix3 p q j := by
  have c3 := contrEquiv1_symm_val (dims w) K rfl rfl j
  funext ax; apply Fin.ext
  match ax with
  | ⟨0, _⟩ => simp [DotDims.lhsIdx]; rfl
  | ⟨1, _⟩ => simp [DotDims.lhsIdx]; rfl
  | ⟨2, _⟩ => simp [DotDims.lhsIdx]; exact c3

/-- and the right operand at `(p, o, j)`. -/
theorem rhsIdx_eq (w : DotDims.WF ⟨3, ![B, N, K]⟩ ⟨3, ![B, M, K]⟩ ⟨3, ![B, N, M]⟩ [2] [2] [1] [1] [0] [0])
    (p : Fin B) (q : Fin N) (o : Fin M) (j : Fin K) :
    (dims w).rhsIdx (ix3 p q o) ((contrEquiv1 (dims w) K rfl rfl).symm j) = ix3 p o j := by
  have c3 := contrEquiv1_symm_val (dims w) K rfl rfl j
  funext ax; apply Fin.ext
  match ax with
  | ⟨0, _⟩ => simp [DotDims.rhsIdx]; rfl
  | ⟨1, _⟩ => simp [DotDims.rhsIdx]; rfl
  | ⟨2, _⟩ => simp [DotDims.rhsIdx]; exact c3

/-- The contraction's sum over its index, re-indexed by the contracted coordinate. -/
theorem sum_eq (w : DotDims.WF ⟨3, ![B, N, K]⟩ ⟨3, ![B, M, K]⟩ ⟨3, ![B, N, M]⟩ [2] [2] [1] [1] [0] [0])
    (lhs : (⟨3, ![B, N, K]⟩ : Shape).Idx → EReal) (rhs : (⟨3, ![B, M, K]⟩ : Shape).Idx → EReal)
    (p : Fin B) (q : Fin N) (o : Fin M) :
    (∑ k : (dims w).contr.Idx, lhs ((dims w).lhsIdx (ix3 p q o) k) * rhs ((dims w).rhsIdx (ix3 p q o) k))
      = ∑ j : Fin K, lhs (ix3 p q j) * rhs (ix3 p o j) := by
  rw [← Equiv.sum_comp (contrEquiv1 (dims w) K rfl rfl).symm]
  refine Finset.sum_congr rfl fun j _ => ?_
  rw [lhsIdx_eq, rhsIdx_eq]

/-- The host's `dot_general` with these dimension numbers, read at an index, at the ideal values. -/
theorem dotGeneral_apply (w : DotDims.WF ⟨3, ![B, N, K]⟩ ⟨3, ![B, M, K]⟩ ⟨3, ![B, N, M]⟩ [2] [2] [1] [1] [0] [0])
    (prec : Option ContractPrecision) (lhs : FVec Ideal ⟨3, ![B, N, K]⟩ φ₁) (rhs : FVec Ideal ⟨3, ![B, M, K]⟩ φ₂)
    (p : Fin B) (q : Fin N) (o : Fin M) :
    Host.dotGeneral (dims w) prec lhs rhs (ix3 p q o) = ∑ j : Fin K, lhs (ix3 p q j) * rhs (ix3 p o j) := by
  show FloatOps.dotGeneral _ prec _ lhs rhs (ix3 p q o) = _
  rw [Ideal.dotGeneral_apply]
  exact sum_eq w lhs rhs p q o

/-- A `tpu.matmul` with these dimension numbers into the zero accumulator, read at an index, at the ideal values. -/
theorem matmul_zero_apply (w : DotDims.WF ⟨3, ![B, N, K]⟩ ⟨3, ![B, M, K]⟩ ⟨3, ![B, N, M]⟩ [2] [2] [1] [1] [0] [0])
    (prec : Option ContractPrecision) (lhs : FVec Ideal ⟨3, ![B, N, K]⟩ φ₁) (rhs : FVec Ideal ⟨3, ![B, M, K]⟩ φ₂)
    (p : Fin B) (q : Fin N) (o : Fin M) :
    matmul (dims w) prec lhs rhs (constant (F := Ideal) ⟨3, ![B, N, M]⟩ .f32 0x00000000#32) (ix3 p q o)
      = ∑ j : Fin K, lhs (ix3 p q j) * rhs (ix3 p o j) := by
  show FloatOps.matmul _ prec lhs rhs _ (ix3 p q o) = _
  rw [Ideal.matmul_constant_zero_apply]
  exact sum_eq w lhs rhs p q o

end Cert.Lib.BatchedRowRowDot

end
-- ==== Proof.Spec.lean ====
/-
  The function both programs compute. The input `x` is a stack of 128 events, each a list of 512 four-vectors
  (energy first, then the three momentum components). The result holds, for every event `p` and every pair of
  particles `(q, o)`, their Minkowski inner product with signature (+, −, −, −):

      entry x p q o = ∑ d, x (p, q, d) * (x (p, o, d) * η d),        η = (1, −1, −1, −1)

  that is, entry `(q, o)` of the Gram matrix `X · diag η · Xᵀ` of event `p`. Both programs scale the SECOND factor by
  `η` before contracting, and both spell `η` by the same two f32 words (that of 1 at `d = 0`, that of −1 elsewhere), so
  the two sides agree term by term on the extended reals: no law beyond reading each operation at an index is used,
  and in particular nothing that would need the inputs to be finite.

  The result is stated twice: as the stack of Gram matrices `[128, 512, 512]` (what the contraction yields) and with the
  trailing unit axis `[128, 512, 512, 1]` that both programs append.
-/
import Idealize.ShloMosaic.Lib.ValueIdx
import Idealize.ShloMosaic.Lib.Pipeline.Value
import Idealize.ShloMosaic.PureOps.Ideal

noncomputable section

namespace Cert.Gram

open Idealize.ShloMosaic Idealize.ShloMosaic.ValueIdx

/-- The f32 words of the metric's diagonal: 1 on the energy coordinate, −1 on the three momentum coordinates. -/
def metricWord (d : Fin 4) : BitVec 32 := if d = 0 then 0x3F800000#32 else 0xBF800000#32

/-- The metric's diagonal, as the extended reals those words denote. -/
def metric (d : Fin 4) : EReal := Ideal.ofBits .f32 (metricWord d)

/-- The Minkowski inner product of particles `q` and `o` of event `p`. -/
def entry (x : (⟨3, ![128, 512, 4]⟩ : Shape).Idx → EReal) (p : Fin 128) (q o : Fin 512) : EReal :=
  ∑ d : Fin 4, x (ix3 p q d) * (x (ix3 p o d) * metric d)

/-- The stack of Gram matrices. -/
def gram (x : (⟨3, ![128, 512, 4]⟩ : Shape).Idx → EReal) : (⟨3, ![128, 512, 512]⟩ : Shape).Idx → EReal :=
  fun i => entry x (i 0) (i 1) (i 2)

/-- The same with the trailing unit axis both programs append. -/
def gramCol (x : (⟨3, ![128, 512, 4]⟩ : Shape).Idx → EReal) : (⟨4, ![128, 512, 512, 1]⟩ : Shape).Idx → EReal :=
  fun i => entry x (i 0) (i 1) (i 2)

theorem gram_ix3 (x : (⟨3, ![128, 512, 4]⟩ : Shape).Idx → EReal) (p : Fin 128) (q o : Fin 512) :
    gram x (ix3 p q o) = entry x p q o := rfl

theorem gramCol_ix4 (x : (⟨3, ![128, 512, 4]⟩ : Shape).Idx → EReal) (p : Fin 128) (q o : Fin 512) (u : Fin 1) :
    gramCol x (ix4 p q o u) = entry x p q o := rfl

/-- Appending the unit axis (a `broadcast_in_dim` along the three leading axes) to the stack of Gram matrices. -/
theorem broadcastInDim_gram (x : (⟨3, ![128, 512, 4]⟩ : Shape).Idx → EReal)
    (h : (⟨3, ![128, 512, 512]⟩ : Shape).BroadcastsInDim ⟨4, ![128, 512, 512, 1]⟩ (![0, 1, 2] : Fin 3 → Fin 4)) :
    broadcastInDim ⟨4, ![128, 512, 512, 1]⟩ ![0, 1, 2] h (gram x) = gramCol x := by
  funext i
  obtain ⟨p, q, o, u, rfl⟩ : ∃ (p : Fin 128) (q o : Fin 512) (u : Fin 1), i = ix4 p q o u := ⟨i 0, i 1, i 2, i 3, eq_ix4 i⟩
  refine (broadcastInDim_apply _ h (gram x) (ix4 p q o u) (ix3 p q o) fun a => ?_).trans rfl
  match a with
  | ⟨0, _⟩ => rfl
  | ⟨1, _⟩ => rfl
  | ⟨2, _⟩ => rfl

end Cert.Gram

end
-- ==== Proof.KernelPayload.lean ====
/-
  What the kernel's body computes from one block, read at an index. A block is four consecutive events,
  `x0 : [4, 512, 4]`. The body builds the metric's diagonal from the coordinate number (`1` where it is zero, `−1`
  elsewhere), scales the block by it along the last axis, and contracts the block with the scaled block over that axis,
  event by event. So entry `(b, q, o)` of what it stores is the Minkowski inner product of particles `q` and `o` of the
  block's event `b`:

      payload x0 (b, q, o) = ∑ d, x0 (b, q, d) * (x0 (b, o, d) * η d).

  The two changes of float format in front of the contraction are the identity on the extended reals.
-/
import proofs.«102409_j52725018525982_2_alg».proof.Proof.Gen.KernelIdeal.Skeleton
import proofs.«102409_j52725018525982_2_alg».proof.Proof.LibBatchedRowRowDot
import proofs.«102409_j52725018525982_2_alg».proof.Proof.Spec
import Idealize.ShloMosaic.Lib.Pipeline.Value
import Idealize.ShloMosaic.Lib.ValueIdx

noncomputable section

namespace Cert.KernelIdeal.Payload

open Cert.KernelIdeal Cert.KernelIdeal.Gen Idealize.ShloMosaic Idealize.ShloMosaic.ValueIdx

/-- The body's sign vector `[1, 1, 4]`: the word of 1 where the coordinate number is zero, the word of −1 elsewhere. -/
def signVec : FVec Ideal S1x1x4 .f32 :=
  select (cmpi .eq (iota .tc S1x1x4 32 [2] Facts₀.iota_S1x1x4_d2_w32) (broadcast S1x1x4 (0#32 : BitVec 32)))
    (broadcast S1x1x4 (Scalar.ofBits (F := Ideal) .f32 0x3F800000#32))
    (broadcast S1x1x4 (Scalar.ofBits (F := Ideal) .f32 0xBF800000#32))

/-- The comparison of a coordinate number below four with zero, decided. -/
theorem cmp_zero : ∀ d : Fin 4, IntOp.cmpi .eq (BitVec.ofNat 32 d.val) (0#32 : BitVec 32) = if d = 0 then 1#1 else 0#1 := by
  decide

/-- It is the metric's diagonal. -/
theorem signVec_apply (d : Fin 4) : signVec (ix3 (0 : Fin 1) (0 : Fin 1) d) = Cert.Gram.metric d := by
  unfold signVec
  rw [select_apply]
  show Scalar.select (IntOp.cmpi .eq (iota .tc S1x1x4 32 [2] Facts₀.iota_S1x1x4_d2_w32 (ix3 (0 : Fin 1) (0 : Fin 1) d)) (0#32 : BitVec 32))
      (Ideal.ofBits .f32 0x3F800000#32) (Ideal.ofBits .f32 0xBF800000#32) = _
  rw [iota_single_apply]
  show Scalar.select (IntOp.cmpi .eq (BitVec.ofNat 32 d.val) (0#32 : BitVec 32))
      (Ideal.ofBits .f32 0x3F800000#32) (Ideal.ofBits .f32 0xBF800000#32) = Ideal.ofBits .f32 (Cert.Gram.metricWord d)
  rw [cmp_zero d]
  unfold Cert.Gram.metricWord
  by_cases h : d = 0
  · rw [if_pos h, if_pos h, select_one]
  · rw [if_neg h, if_neg h, select_zero]

/-- Spread over a block, the sign vector at `(b, o, d)` is its entry `d`. -/
theorem signVec_spread (b : Fin 4) (o : Fin 512) (d : Fin 4) :
    broadcastTo S4x512x4 signVec Facts₀.broadcasts_S1x1x4_S4x512x4 (ix3 b o d) = Cert.Gram.metric d := by
  refine (broadcastTo_apply signVec Facts₀.broadcasts_S1x1x4_S4x512x4 (ix3 b o d) (ix3 (0 : Fin 1) (0 : Fin 1) d) fun a => ?_).trans
    (signVec_apply d)
  match a with
  | ⟨0, _⟩ => rfl
  | ⟨1, _⟩ => rfl
  | ⟨2, _⟩ => rfl

/-- THE PAYLOAD AT AN INDEX: the Minkowski inner product of particles `q` and `o` of the block's event `b`. -/
theorem pay_apply (x0 : Vec Ideal S4x512x4 .f32) (b : Fin 4) (q o : Fin 512) :
    k0_pay1 (F := Ideal) x0 (ix3 b q o) = ∑ d : Fin 4, x0 (ix3 b q d) * (x0 (ix3 b o d) * Cert.Gram.metric d) := by
  unfold k0_pay1
  refine (Cert.Lib.BatchedRowRowDot.matmul_zero_apply Facts₀.dot_S4x512x4_S4x512x4_S4x512x512_2_2_1_1_0_0_wf none _ _ b q o).trans ?_
  refine Finset.sum_congr rfl fun d _ => ?_
  exact congrArg (fun s : EReal => x0 (ix3 b q d) * (x0 (ix3 b o d) * s)) (signVec_spread b o d)

end Cert.KernelIdeal.Payload

end
-- ==== Proof.KernelArray.lean ====
/-
  From blocks to the array, and the kernel program's run read back.

  The grid has 32 points. Point `t` fetches events `4t … 4t + 3` of the input (a block `[4, 512, 4]` at block index
  `(t, 0, 0)`) and writes back the same four events' Gram matrices (a block `[4, 512, 512]` at block index `(t, 0, 0)`
  of the `[128, 512, 512]` output). An entry of a Gram matrix depends on its own event only, so what point `t` writes
  back is block `t` of ONE whole-array function of the input, the stack of Gram matrices `Cert.Gram.gram`; the 32
  blocks tile the output, so after the region the output array IS that function of the input; and the host line after
  the region appends the unit axis.
-/
import proofs.«102409_j52725018525982_2_alg».proof.Proof.Gen.KernelIdeal.Frame
import proofs.«102409_j52725018525982_2_alg».proof.Proof.KernelPayload
import Idealize.ShloMosaic.Lib.Pipeline.Value
import Idealize.ShloMosaic.Lib.StableHlo.Run

set_option maxRecDepth 16384

noncomputable section

namespace Cert.KernelIdeal.HandValue

open Cert.KernelIdeal Cert.KernelIdeal.Gen Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The printed index maps, decided over the grid: both windows sit at block `(t₀, 0, 0)` with the same `t₀ ≤ 31`. -/
theorem idx_facts : ∀ t : Fin cfg0.N, win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0
    ∧ win0_1.index t (0 : Fin 3) ≤ 31 :=
  (by decide +kernel : ∀ t : Fin grid0.N, _)

/-- Every block of four events is some point's. -/
theorem idx_onto : ∀ q0 : Fin 32, ∃ t : Fin cfg0.N, win0_1.index t = ![q0.val, 0, 0] :=
  (by decide +kernel : ∀ q0 : Fin 32, ∃ t : Fin grid0.N, win0_1.index t = ![q0.val, 0, 0])

/-- The input window's block at point `t` is events `4 t₀ … 4 t₀ + 3` of the input array. -/
theorem iblk_apply (c : Dev nD) (t : Fin cfg0.N) (b : Fin 4) (q : Fin 512) (d : Fin 4) (p : Fin 128)
    (hp : p.val = win0_1.index t (0 : Fin 3) * 4 + b.val) :
    (iblk m c 0 t : Vec Ideal S4x512x4 .f32) (ix3 b q d) = (V m c main_arg0 : S128x512x4.Idx → EReal) (ix3 p q d) := by
  obtain ⟨e0, e1, e2, e3, e4, e5⟩ := idx_facts t
  have h : ((cfg0.win 0).blk t).view.emb (ix3 b q d) = ix3 p q d := by
    funext a; apply Fin.ext
    match a with
    | ⟨0, _⟩ => show win0_0.index t (0 : Fin 3) * 4 + 1 * b.val = p.val; omega
    | ⟨1, _⟩ => show win0_0.index t (1 : Fin 3) * 512 + 1 * q.val = q.val; omega
    | ⟨2, _⟩ => show win0_0.index t (2 : Fin 3) * 4 + 1 * d.val = d.val; omega
  show V m c main_arg0 (((cfg0.win 0).blk t).view.emb (ix3 b q d)) = V m c main_arg0 (ix3 p q d)
  rw [h]

/-- A block's payload against the whole array: if the block `x0` is events `4 T … 4 T + 3` of `X`, its payload at `y`
    is the stack of Gram matrices of `X` at the index `i` with the event `4 T + y₀` and `y`'s two particles. -/
theorem pay_block (X : (⟨3, ![128, 512, 4]⟩ : Shape).Idx → EReal) (x0 : Vec Ideal S4x512x4 .f32) (T : Nat)
    (hx : ∀ (b : Fin 4) (q : Fin 512) (d : Fin 4) (p : Fin 128), p.val = T * 4 + b.val → x0 (ix3 b q d) = X (ix3 p q d))
    (y : S4x512x512.Idx) (i : S128x512x512.Idx)
    (hi0 : (i 0).val = T * 4 + (y 0).val) (hi1 : (i 1).val = (y 1).val) (hi2 : (i 2).val = (y 2).val) :
    k0_pay1 (F := Ideal) x0 y = Cert.Gram.gram X i := by
  obtain ⟨b, q, o, rfl⟩ : ∃ (b : Fin 4) (q o : Fin 512), y = ix3 b q o := ⟨y 0, y 1, y 2, eq_ix3 y⟩
  obtain ⟨p, q', o', rfl⟩ : ∃ (p : Fin 128) (q' o' : Fin 512), i = ix3 p q' o' := ⟨i 0, i 1, i 2, eq_ix3 i⟩
  obtain rfl : q' = q := Fin.ext hi1
  obtain rfl : o' = o := Fin.ext hi2
  rw [Payload.pay_apply, Cert.Gram.gram_ix3]
  unfold Cert.Gram.entry
  refine Finset.sum_congr rfl fun d _ => ?_
  rw [hx b q' d p hi0, hx b o' d p hi0]

/-- WHAT POINT `t` WRITES BACK is block `t` of the stack of Gram matrices of the input array as the region finds it. -/
theorem flushed_eq (c : Dev nD) (t : Fin cfg0.N) :
    (dats m 0 c).flushed 1 t = ((cfg0.win 1).blk t).view.read (Elt Ideal) (Cert.Gram.gram (V m c main_arg0)) := by
  show (cfg0.win 1).cut (grid0.coords t) ((dats m 0 c).after 1 t) = _
  rw [after0_1]
  unfold out0_1
  rw [View.canon_unit_zero hz]
  simp only [View.ld_unit_zero (S := S4x512x4) hz]
  funext j
  show k0_pay1 (F := Ideal) (iblk m c 0 t) j = Cert.Gram.gram (V m c main_arg0) (((cfg0.win 1).blk t).view.emb j)
  refine pay_block (V m c main_arg0) (iblk m c 0 t) (win0_1.index t (0 : Fin 3)) (fun b q d p hp => iblk_apply m c t b q d p hp) j _ ?_ ?_ ?_
  · show win0_1.index t (0 : Fin 3) * 4 + 1 * (j 0).val = win0_1.index t (0 : Fin 3) * 4 + (j 0).val; omega
  · obtain ⟨e0, e1, e2, e3, e4, e5⟩ := idx_facts t
    show win0_1.index t (1 : Fin 3) * 512 + 1 * (j 1).val = (j 1).val; omega
  · obtain ⟨e0, e1, e2, e3, e4, e5⟩ := idx_facts t
    show win0_1.index t (2 : Fin 3) * 512 + 1 * (j 2).val = (j 2).val; omega

/-- An index of the output array is in point `t`'s block iff each coordinate is in the block's range on its axis. -/
theorem mem_blk (t : Fin cfg0.N) (i : S128x512x512.Idx) :
    i ∈ ((cfg0.win 1).blk t).view.set ↔ ∀ a : Fin 3, win0_1.index t a * S4x512x512.size a ≤ (i a).val ∧ (i a).val < win0_1.index t a * S4x512x512.size a + S4x512x512.size a := by
  show i ∈ ((View.whole main_v0).slice (win0_1.rect t)).set ↔ _
  rw [View.set_slice_whole, Rect.mem_set_unit]
  exact Iff.rfl

/-- The blocks tile the output: event `p` is in the block of the point at block index `p / 4`. -/
theorem cover (i : S128x512x512.Idx) : ∃ t : Fin cfg0.N, (cfg0.win 1).flush t = true ∧ i ∈ ((cfg0.win 1).blk t).view.set := by
  have hi0 : (i 0).val < 128 := (i 0).isLt
  have hi1 : (i 1).val < 512 := (i 1).isLt
  have hi2 : (i 2).val < 512 := (i 2).isLt
  obtain ⟨t, ht⟩ := idx_onto ⟨(i 0).val / 4, by omega⟩
  have q0 : win0_1.index t (0 : Fin 3) = (i 0).val / 4 := congrFun ht 0
  have q1 : win0_1.index t (1 : Fin 3) = 0 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 4 ≤ (i 0).val ∧ (i 0).val < win0_1.index t (0 : Fin 3) * 4 + 4; omega
  | ⟨1, _⟩ => show win0_1.index t (1 : Fin 3) * 512 ≤ (i 1).val ∧ (i 1).val < win0_1.index t (1 : Fin 3) * 512 + 512; omega
  | ⟨2, _⟩ => show win0_1.index t (2 : Fin 3) * 512 ≤ (i 2).val ∧ (i 2).val < win0_1.index t (2 : Fin 3) * 512 + 512; omega

/-- THE OUTPUT ARRAY after the region: the stack of Gram matrices of the input. -/
theorem final (c : Dev nD) : (dats m 0 c).arrAt 1 cfg0.N = Cert.Gram.gram (m ((c : Thread nD τ).loc main_arg0)) :=
  (dats m 0 c).arrAt_eq_of_cover 1 (Cert.Gram.gram (V m c main_arg0)) (fun t _ => flushed_eq m c t) cover

/-- THE RESULT: the host line after the region appends the unit axis to the output array. -/
theorem tail_eq (c : Dev nD) :
    Pipeline.afterTail₀ cfgs (dats m) 0 (V0 m) [hostOps1] c main_v1 = Cert.Gram.gramCol (m ((c : Thread nD τ).loc main_arg0)) := by
  unfold Pipeline.afterTail₀
  show StableHlo.after hostOps1 _ (Proc.devRef .tc main_v1) = _
  after_results
  have hw : (Pipeline.withArrays (cfgs 0).spec c (V0 m c) (fun w => (dats m 0 c).arrAt w (cfgs 0).N)
      (Proc.devRef .tc main_v0) : S128x512x512.Idx → EReal) = Cert.Gram.gram (m ((c : Thread nD τ).loc main_arg0)) :=
    (Pipeline.withArrays_arr spec0 launch0.win.arr_inj c _ _ 1).trans (final m c)
  rw [hw]
  exact Cert.Gram.broadcastInDim_gram _ _

/-- The buffer of the result is none of the region's arrays and is not scoped: the region passes it by. -/
theorem result_bypasses : main_v1 ∈ Pipeline.restRefs sig (cfgs 0).spec :=
  Pipeline.mem_restRefs_of main_v1 rfl (fun w => by fin_cases w <;> decide)

/-- THE KERNEL PROGRAM'S RUN, READ: every weakly fair execution terminates with the result buffer at the stack of Gram
    matrices of the argument with the unit axis appended, and the argument unchanged. -/
theorem run : θ_run defs (onTc (τ := τ) (main (F := Ideal))) ⟨m, fun _ => 0, ρ⟩ fun r => ∀ c : Dev nD,
      r.2.mem ((c.tc : Thread nD τ).loc main_v1) = Cert.Gram.gramCol (m ((c.tc : Thread nD τ).loc main_arg0))
      ∧ r.2.mem ((c.tc : Thread nD τ).loc main_arg0) = m ((c.tc : Thread nD τ).loc main_arg0) :=
  (θ_run defs _ _).mono (fun _ h c => ⟨((h c).2 main_v1 result_bypasses).trans (tail_eq m c),
      ((h c).1 0).trans (((dats m 0 c).arrAt_in 0 rfl _).trans ((A_eq m c 0).trans (V_main_arg0 m c)))⟩)
    (run_main m ρ)

end Cert.KernelIdeal.HandValue

end
-- ==== Proof.ReferenceRun.lean ====
/-
  The reference program's run, read back. Its @main is six host operations in a line: the metric's diagonal as a
  constant table of four words, that table placed along the last axis and spread over the input's shape, the input
  scaled by it, the batched contraction of the input with the scaled input over the last axis, and the trailing unit
  axis appended. Every weakly fair execution terminates with the result buffer at those operations' composed term of
  the argument array's launch contents (`refTerm`), the argument unchanged.
-/
import proofs.«102409_j52725018525982_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The metric's diagonal as the program's constant table holds it. -/
def metricTable : FVec F S4 .f32 := fun i => FloatOps.ofBits .f32 (lit0 (S4.rowMajor i))

/-- The result as the operations' composed term of the argument array. -/
def refTerm (x : FVec F S128x512x4 .f32) : FVec F S128x512x512x1 .f32 :=
  broadcastInDim S128x512x512x1 ![0, 1, 2] Facts₀.bcast_S128x512x512_S128x512x512x1_0_1_2
    (Host.dotGeneral dot_S128x512x4_S128x512x4_S128x512x512_2_2_1_1_0_0 none x
      (mulf x (broadcastInDim S128x512x4 ![0, 1, 2] Facts₀.bcast_S1x1x4_S128x512x4_0_1_2
        (broadcastInDim S1x1x4 ![2] Facts₀.bcast_S4_S1x1x4_2 metricTable))))

/-- @main's six operations, in order. -/
abbrev ops : List (HloOp τ sig (Elt F)) :=
  [ nullary main_cst (fun i => FloatOps.ofBits .f32 (lit0 (S4.rowMajor i))),
    unary main_cst main_v0 (broadcastInDim S1x1x4 ![2] Facts₀.bcast_S4_S1x1x4_2 : (⟨S4, .f32⟩ : BufTy).Contents (Elt F) → (⟨S1x1x4, .f32⟩ : BufTy).Contents (Elt F)),
    unary main_v0 main_v1 (broadcastInDim S128x512x4 ![0, 1, 2] Facts₀.bcast_S1x1x4_S128x512x4_0_1_2 : (⟨S1x1x4, .f32⟩ : BufTy).Contents (Elt F) → (⟨S128x512x4, .f32⟩ : BufTy).Contents (Elt F)),
    binary main_arg0 main_v1 main_v2 (mulf : (⟨S128x512x4, .f32⟩ : BufTy).Contents (Elt F) → (⟨S128x512x4, .f32⟩ : BufTy).Contents (Elt F) → (⟨S128x512x4, .f32⟩ : BufTy).Contents (Elt F)),
    binary main_arg0 main_v2 main_v3 ((fun l r => Host.dotGeneral dot_S128x512x4_S128x512x4_S128x512x512_2_2_1_1_0_0 none l r) : (⟨S128x512x4, .f32⟩ : BufTy).Contents (Elt F) → (⟨S128x512x4, .f32⟩ : BufTy).Contents (Elt F) → (⟨S128x512x512, .f32⟩ : BufTy).Contents (Elt F)),
    unary main_v3 main_v4 (broadcastInDim S128x512x512x1 ![0, 1, 2] Facts₀.bcast_S128x512x512_S128x512x512x1_0_1_2 : (⟨S128x512x512, .f32⟩ : BufTy).Contents (Elt F) → (⟨S128x512x512x1, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., unary_bufs_sub .., binary_bufs_sub .., binary_bufs_sub .., unary_bufs_sub ..⟩

/-- On every device, for any float values, from any memory with zero counters: every weakly fair execution of @main
    terminates with the result at the operations' composed term of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = refTerm (m ((c.tc : Thread nD τ).loc main_arg0))
      ∧ r.2.mem ((c.tc : Thread nD τ).loc main_arg0) = m ((c.tc : Thread nD τ).loc main_arg0) :=
  (θ_run defs _ _).mono (fun _ h c => ⟨(h c main_v4).trans (by after_results; rfl),
      (h c main_arg0).trans (by after_results)⟩)
    (run_seq scopedRefs_eq scopedSems_eq defs main (fun _ => ops) main_eq (fun _ => ops_sub) m ρ)

end Cert.ReferenceIdeal.HandRun

end
-- ==== Proof.ReferenceValue.lean ====
/-
  The reference's composed term, at the ideal values, is the specification: the constant table's entry `d` is the
  metric's `η d`; placed along the last axis and spread over the input's shape it reads `η d` at every `(p, o, d)`; so
  the scaled input is `x (p, o, d) * η d`, the batched contraction's entry `(p, q, o)` is
  `∑ d, x (p, q, d) * (x (p, o, d) * η d)`, and the appended unit axis changes nothing.
-/
import proofs.«102409_j52725018525982_2_alg».proof.Proof.ReferenceRun
import proofs.«102409_j52725018525982_2_alg».proof.Proof.LibBatchedRowRowDot
import proofs.«102409_j52725018525982_2_alg».proof.Proof.Spec
import Idealize.ShloMosaic.Lib.Pipeline.Value
import Idealize.ShloMosaic.Lib.ValueIdx

noncomputable section

namespace Cert.ReferenceIdeal.HandValue

open Cert.ReferenceIdeal Cert.ReferenceIdeal.HandRun Idealize.ShloMosaic Idealize.ShloMosaic.ValueIdx

/-- The program's table holds the metric's words. -/
theorem lit0_eq : ∀ d : Fin 4, lit0 d = Cert.Gram.metricWord d := by decide

/-- The constant table's entry `d` is `η d`. -/
theorem metricTable_apply (d : Fin 4) : metricTable (F := Ideal) (ix1 d) = Cert.Gram.metric d := by
  have hr : S4.rowMajor (ix1 d) = d := Fin.ext (Shape.rowMajor_val_one (ix1 d))
  unfold metricTable Cert.Gram.metric
  rw [hr, lit0_eq d]
  rfl

/-- Placed along the last axis and spread over the input's shape, the table reads `η d` at `(p, o, d)`. -/
theorem metric_spread (p : Fin 128) (o : Fin 512) (d : Fin 4) :
    broadcastInDim S128x512x4 ![0, 1, 2] Facts₀.bcast_S1x1x4_S128x512x4_0_1_2
      (broadcastInDim S1x1x4 ![2] Facts₀.bcast_S4_S1x1x4_2 (metricTable (F := Ideal))) (ix3 p o d) = Cert.Gram.metric d := by
  refine (broadcastInDim_apply _ Facts₀.bcast_S1x1x4_S128x512x4_0_1_2 _ (ix3 p o d) (ix3 (0 : Fin 1) (0 : Fin 1) d) fun a => ?_).trans ?_
  · match a with
    | ⟨0, _⟩ => rfl
    | ⟨1, _⟩ => rfl
    | ⟨2, _⟩ => rfl
  refine (broadcastInDim_apply _ Facts₀.bcast_S4_S1x1x4_2 _ (ix3 (0 : Fin 1) (0 : Fin 1) d) (ix1 d) fun a => ?_).trans (metricTable_apply d)
  match a with
  | ⟨0, _⟩ => rfl

/-- The batched contraction of the input with the scaled input is the stack of Gram matrices. -/
theorem contraction_eq (x : FVec Ideal S128x512x4 .f32) :
    Host.dotGeneral dot_S128x512x4_S128x512x4_S128x512x512_2_2_1_1_0_0 none x
      (mulf x (broadcastInDim S128x512x4 ![0, 1, 2] Facts₀.bcast_S1x1x4_S128x512x4_0_1_2
        (broadcastInDim S1x1x4 ![2] Facts₀.bcast_S4_S1x1x4_2 (metricTable (F := Ideal))))) = Cert.Gram.gram x := by
  funext i
  obtain ⟨p, q, o, rfl⟩ : ∃ (p : Fin 128) (q o : Fin 512), i = ix3 p q o := ⟨i 0, i 1, i 2, eq_ix3 i⟩
  refine (Cert.Lib.BatchedRowRowDot.dotGeneral_apply Facts₀.dot_S128x512x4_S128x512x4_S128x512x512_2_2_1_1_0_0_wf none _ _ p q o).trans ?_
  show _ = ∑ d : Fin 4, x (ix3 p q d) * (x (ix3 p o d) * Cert.Gram.metric d)
  refine Finset.sum_congr rfl fun d _ => ?_
  exact congrArg (fun s : EReal => x (ix3 p q d) * (x (ix3 p o d) * s)) (metric_spread p o d)

/-- THE REFERENCE'S TERM IS THE SPECIFICATION. -/
theorem refTerm_eq (x : FVec Ideal S128x512x4 .f32) : refTerm (F := Ideal) x = Cert.Gram.gramCol x := by
  unfold refTerm
  rw [contraction_eq]
  exact Cert.Gram.broadcastInDim_gram x _

end Cert.ReferenceIdeal.HandValue

end
-- ==== Proof.lean ====
/-
  Pairwise Minkowski inner products of a stack of events: the kernel against its jnp reference.

  The input `x : [128, 512, 4]` holds 128 events of 512 four-vectors. Both programs return, for every event `p` and
  every pair of particles `(q, o)`,

      result (p, q, o, 0) = ∑ d, x (p, q, d) * (x (p, o, d) * η d),        η = (1, −1, −1, −1),

  the Gram matrix `X · diag η · Xᵀ` of each event, with a trailing unit axis.

  * The reference scales the input by the constant table `η` along the last axis, contracts the input with the scaled
    input over that axis, event by event (one batch axis), and appends the unit axis. Its run is read back operation
    by operation (Proof/ReferenceRun.lean) and its term read at an index (Proof/ReferenceValue.lean).
  * The kernel works on blocks of four events over a grid of 32 points. Its body rebuilds `η` from the coordinate
    number (the word of 1 where it is zero, the word of −1 elsewhere), scales the block, rounds both factors to bf16 —
    the identity on the extended reals — and contracts them on the matrix unit into a zero accumulator
    (Proof/KernelPayload.lean). An entry of a Gram matrix depends on its own event only, so each point's block is a
    block of one whole-array function, the 32 blocks tile the output, and the host line after the region appends the
    unit axis (Proof/KernelArray.lean).
  * Both spell `η` by the same two f32 words and both multiply the SECOND factor by it, so the two results agree term
    by term (Proof/Spec.lean states the common function): no rearrangement of the sum, no distributivity, and hence no
    use of the inputs' finiteness. The contraction with one batch axis, rows against rows, is read at an index by one
    general lemma used at both sizes (Proof/LibBatchedRowRowDot.lean).

  The ideal pass rewrote nothing in the kernel, so the idealization claim has no conjunct. The three frames are the
  generated frame certificates of the two kernel programs and the reference's run with its result dropped.
-/
import proofs.«102409_j52725018525982_2_alg».proof.Defs
import proofs.«102409_j52725018525982_2_alg».proof.Proof.Gen.Kernel
import proofs.«102409_j52725018525982_2_alg».proof.Proof.Gen.Kernel.Skeleton
import proofs.«102409_j52725018525982_2_alg».proof.Proof.Gen.Kernel.Launch
import proofs.«102409_j52725018525982_2_alg».proof.Proof.Gen.Kernel.Points
import proofs.«102409_j52725018525982_2_alg».proof.Proof.Gen.Kernel.Frame
import proofs.«102409_j52725018525982_2_alg».proof.Proof.Gen.KernelIdeal
import proofs.«102409_j52725018525982_2_alg».proof.Proof.Gen.KernelIdeal.Skeleton
import proofs.«102409_j52725018525982_2_alg».proof.Proof.Gen.KernelIdeal.Launch
import proofs.«102409_j52725018525982_2_alg».proof.Proof.Gen.KernelIdeal.Points
import proofs.«102409_j52725018525982_2_alg».proof.Proof.Gen.KernelIdeal.Frame
import proofs.«102409_j52725018525982_2_alg».proof.Proof.Gen.ReferenceIdeal
import proofs.«102409_j52725018525982_2_alg».proof.Proof.Gen.Pre_finite_inputs
import proofs.«102409_j52725018525982_2_alg».proof.Proof.KernelArray
import proofs.«102409_j52725018525982_2_alg».proof.Proof.ReferenceValue
import Idealize.ShloMosaic.Adequacy
import Idealize.ShloMosaic.Init

noncomputable section

namespace Cert.Proof

open Idealize.ShloMosaic Idealize.SL.Sem

/-- The word-level kernel program runs and leaves its argument unchanged: its generated frame certificate. -/
theorem frame_kernel : Cert.frame_Kernel := fun m ρ _ => Cert.Kernel.Gen.frame m ρ

/-- The same for the kernel program read at the ideal values. -/
theorem frame_kernelIdeal : Cert.frame_KernelIdeal := fun m ρ _ => Cert.KernelIdeal.Gen.frame m ρ

/-- The reference runs and leaves its argument unchanged: its run, the result dropped. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- The ideal pass rewrote no operation of the kernel. -/
theorem preserves : Cert.preserves_Kernel_KernelIdeal := trivial

/-- At the ideal values both programs, from memories agreeing on the argument, end with the result at the stack of
    Gram matrices of the argument with the unit axis appended. -/
theorem algebraic : Cert.algebraic_KernelIdeal_ReferenceIdeal := by
  intro m ρ m' ρ' _ hagree
  refine ⟨_, Cert.KernelIdeal.HandValue.run m ρ, ?_⟩
  refine (θ_run Cert.ReferenceIdeal.defs _ _).mono (fun _ h c => ⟨(h c).1.trans ?_, (h c).2⟩)
    (Cert.ReferenceIdeal.HandRun.run (F := Ideal) m' ρ')
  rw [hagree c]
  exact Cert.ReferenceIdeal.HandValue.refTerm_eq _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
